-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048 : Shape := ⟨1, ![2048]⟩
abbrev S100000x256 : Shape := ⟨2, ![100000, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_

variable [Facts]

def fn {F : FTy → Type} [FloatOps F] (main_arg0 : FVec F S2048x256 .f32) (main_arg1 : IVec S2048 32) (main_arg2 : FVec F S100000x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  main_v8
-- ==== Kernel.lean ====
abbrev S2048x256 : Shape := ⟨2, ![2048, 256]⟩
abbrev S2048 : Shape := ⟨1, ![2048]⟩
abbrev S100000x256 : Shape := ⟨2, ![100000, 256]⟩
abbrev S_ : Shape := ⟨0, ![]⟩
abbrev S2048x1 : Shape := ⟨2, ![2048, 1]⟩
abbrev S2048x100000 : Shape := ⟨2, ![2048, 100000]⟩
abbrev S512x256 : Shape := ⟨2, ![512, 256]⟩
abbrev S4096x256 : Shape := ⟨2, ![4096, 256]⟩
abbrev S512x4096 : Shape := ⟨2, ![512, 4096]⟩

abbrev nBuf : Space → Nat
  | .hbm => 15
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048, .i32⟩
  | .hbm, ⟨2, _⟩ => ⟨S100000x256, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x256, .f32⟩
  | .hbm, ⟨12, _⟩ => ⟨S2048x256, .f32⟩
  | .hbm, ⟨13, _⟩ => ⟨S2048x256, .bf16⟩
  | .hbm, ⟨14, _⟩ => ⟨S2048x100000, .f32⟩
  | .local _ .vmem, ⟨0, _⟩ => ⟨S512x256, .bf16⟩
  | .local _ .vmem, ⟨1, _⟩ => ⟨S512x256, .bf16⟩
  | .local _ .vmem, ⟨2, _⟩ => ⟨S4096x256, .f32⟩
  | .local _ .vmem, ⟨3, _⟩ => ⟨S4096x256, .f32⟩
  | .local _ .vmem, ⟨4, _⟩ => ⟨S512x4096, .f32⟩
  | .local _ .vmem, ⟨5, _⟩ => ⟨S512x4096, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  inb_S512x4096_S512x4096_0_0 : ∀ a, (![0, 0] : Fin 2 → Nat) a + S512x4096.size a ≤ S512x4096.size a
  h_S512x4096 : 0 < S512x4096.numel
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x256.size a
  hwx0_0 : ∀ i : grid0.Coords, EltTy.bits .bf16 = 32 ∨ (Rect.block (s := S2048x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x256.size a < S100000x256.size a
  hwx0_1 : ∀ i : grid0.Coords, EltTy.bits .f32 = 32 ∨ (Rect.unit (s := S100000x256) (fun a => cc0_transform_1 i a * S4096x256.size a) (fun a => (Pipeline.Clip.of (cc0_transform_1 i a) (S4096x256.size a) (S100000x256.size a)).extent (S4096x256.size a)) fun a => Pipeline.Clip.inb (Pipeline.Clip.ok_of (hstart0_1 i a))).WholeWords (EltTy.packing .f32)
  hwxs0_1 : ∀ i : grid0.Coords, EltTy.bits .f32 = 32 ∨ (Rect.unit (s := S4096x256) (fun _ => 0) (fun a => (Pipeline.Clip.of (cc0_transform_1 i a) (S4096x256.size a) (S100000x256.size a)).extent (S4096x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x4096.size a < S2048x100000.size a
  hwx0_2 : ∀ i : grid0.Coords, EltTy.bits .f32 = 32 ∨ (Rect.unit (s := S2048x100000) (fun a => cc0_transform_2 i a * S512x4096.size a) (fun a => (Pipeline.Clip.of (cc0_transform_2 i a) (S512x4096.size a) (S2048x100000.size a)).extent (S512x4096.size a)) fun a => Pipeline.Clip.inb (Pipeline.Clip.ok_of (hstart0_2 i a))).WholeWords (EltTy.packing .f32)
  hwxs0_2 : ∀ i : grid0.Coords, EltTy.bits .f32 = 32 ∨ (Rect.unit (s := S512x4096) (fun _ => 0) (fun a => (Pipeline.Clip.of (cc0_transform_2 i a) (S512x4096.size a) (S2048x100000.size a)).extent (S512x4096.size a)) fun a => (Nat.zero_add _).trans_le (Pipeline.Clip.extent_le (Pipeline.Clip.ok_of (hstart0_2 i a)))).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v5) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S4096x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v6) S512x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S2048 : Shape := ⟨1, ![2048]⟩
abbrev S100000x256 : Shape := ⟨2, ![100000, 256]⟩
abbrev S_ : Shape := ⟨0, ![]⟩
abbrev S2048x1 : Shape := ⟨2, ![2048, 1]⟩
abbrev S2048x100000 : Shape := ⟨2, ![2048, 100000]⟩

abbrev nBuf : Space → Nat
  | .hbm => 14
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048, .i32⟩
  | .hbm, ⟨2, _⟩ => ⟨S100000x256, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x256, .f32⟩
  | .hbm, ⟨12, _⟩ => ⟨S2048x256, .f32⟩
  | .hbm, ⟨13, _⟩ => ⟨S2048x100000, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]

class Facts₀ : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  dot_S2048x256_S100000x256_S2048x100000_1_1_0_0_n_n_wf : DotDims.WF S2048x256 S100000x256 S2048x100000 [1] [1] [0] [0] [] []

variable [Facts₀]

def dot_S2048x256_S100000x256_S2048x100000_1_1_0_0_n_n : DotDims S2048x256 S100000x256 S2048x100000 where
  lhsContracting := [1]
  rhsContracting := [1]
  lhsNonContracting := [0]
  rhsNonContracting := [0]
  lhsBatch := []
  rhsBatch := []
  wf := dot_S2048x256_S100000x256_S2048x100000_1_1_0_0_n_n_wf

class Facts : Prop extends Facts₀ where

variable [Facts]
-- ==== Proof.BitsPoint.lean ====
/-
  One grid point of the blocked product.

  At a grid point the kernel holds three staged blocks: 512 rows of the normalised left operand (256 columns each),
  4096 rows of the right operand (256 columns each), and a 512-by-4096 block of the result.  It reads the two
  operand blocks whole, forms every dot product of a left row with a right row, and overwrites the result block
  whole with them; what the result block held before is read and discarded.  The two operand blocks are left as
  they were found.  Nothing here depends on what the blocks hold: the statement is about any contents.
-/
import proofs.«159441_j67473936220402_2_alg».proof.Proof.Gen.Kernel.Frame
import proofs.«159441_j67473936220402_2_alg».proof.Proof.Gen.Kernel.Skeleton
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three whole-block accesses -/

abbrev r0_0 : Rect S512x256 := Rect.unit (s := S512x256) ![0, 0] S512x256.size inb_S512x256_S512x256_0_0
abbrev r0_1 : Rect S4096x256 := Rect.unit (s := S4096x256) ![0, 0] S4096x256.size inb_S4096x256_S4096x256_0_0
abbrev r0_2 : Rect S512x4096 := Rect.unit (s := S512x4096) ![0, 0] S512x4096.size inb_S512x4096_S512x4096_0_0

/-- The result block after the point: the single whole-block store of the product of the two operand blocks. -/
def out0_2 (x0 : Vec F S512x256 .bf16) (x1 : Vec F S4096x256 .f32) : Vec F S512x4096 .f32 :=
  View.canon [⟨r0_2, k0_pay1 (View.ld x0 r0_0) (View.ld x1 r0_1)⟩]

/-- That one store covers the result block. -/
theorem cover0_2 (p0 : Vec F S512x4096 .f32) (y : S512x4096.Idx) :
    ∃ pc ∈ ([⟨r0_2, p0⟩] : List (View.Piece (Elt F) S512x4096 .f32)), y ∈ pc.1.set :=
  View.cover_of_tiled [⟨r0_2, p0⟩] S512x4096.size (by rfl) y

/-! ## The point's triple -/

set_option maxHeartbeats 1000000 in
/-- On whole staged blocks, the operands at any contents `x0`, `x1` and the result block at anything, the point
    runs without fault and ends with the operands as found and the result block holding their product. -/
theorem sound_kernel (c : Dev nD) (E : Set ℕ) (i : grid0.Coords)
    (arg2 : Memref sig .tc .vmem S512x256 .bf16) (harg2 : arg2.IsWhole)
    (arg3 : Memref sig .tc .vmem S4096x256 .f32) (harg3 : arg3.IsWhole)
    (arg4 : Memref sig .tc .vmem S512x4096 .f32) (harg4 : arg4.IsWhole)
    (x0 : Vec F S512x256 .bf16) (x1 : Vec F S4096x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_bt_kernel i arg2 harg2 arg3 harg3 arg4 harg4) K := by
  simp only [cc0__matmul_bt_kernel_eq_skeleton]; unfold cc0__matmul_bt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

end Cert.Kernel.Body

end
-- ==== Proof.BitsRun.lean ====
/-
  The blocked product over the whole grid, word for word: termination, no fault, and the arguments unchanged.

  The same 25 × 4 grid as on the extended reals: point (j, i) reads rows 512·i … of the normalised left operand and
  rows 4096·j … of the right operand and writes block (i, j) of the result.  The last block of right-operand rows
  overhangs the operand, so below row 1696 that staged block holds words nothing determines; the point still reads
  them, and they reach only result columns that are never written back.  For the frame nothing need be said of
  what the result blocks hold, so the data below leave them unnamed; of the two operand blocks they say what the
  extended-real data say: the left block in place, the right block in place on the rows inside the operand.
-/
import proofs.«159441_j67473936220402_2_alg».proof.Proof.BitsPoint

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staged blocks hold after a point -/

/-- The result window is the one left unnamed. -/
def forgets0 : Fin 3 → Bool := fun w => w.val == 2

/-- The right block at point `t`: the operand's rows where the block lies inside it, the zero word below. -/
def rblk (c : Dev nD) (t : Fin cfg0.N) : Vec F S4096x256 .f32 :=
  win0_1.fill (grid0.coords t) (fun _ => Scalar.ofBits .f32 0#32) (iblk m c 1 t)

/-- The arrays as the grid finds them; after each point the left block and the right block, the result block unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => rblk m c t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = rblk m c t := by dsimp only [dats]

/-! ## What a point finds -/

/-- The left block is in place at every point, fetched there or kept. -/
theorem before0_0 (c : Dev nD) (t : Fin cfg0.N) (d) : (dats m 0 c).before 0 t d = iblk m c 0 t :=
  before0_0_of m (dats m 0 c) (A_eq m c 0) (after0_0 m c) t d

/-- Two points with the same block of right-operand rows cut it at the same row. -/
theorem clip1_of_index (t t' : Fin cfg0.N) (h : (cfg0.win 1).index t = (cfg0.win 1).index t') :
    (cfg0.win 1).clip (cfg0.grid.coords t) = (cfg0.win 1).clip (cfg0.grid.coords t') := by
  funext a
  show Pipeline.Clip.of (win0_1.index t a) _ _ = Pipeline.Clip.of (win0_1.index t' a) _ _
  rw [show win0_1.index t = win0_1.index t' from h]

/-- The right block at every point, fetched there or kept: the operand's rows where the block lies inside it,
    and below them whatever the buffer held (`d`). -/
theorem before0_1 (c : Dev nD) (t : Fin cfg0.N) (d) :
    (dats m 0 c).before 1 t d = win0_1.fill (grid0.coords t) d (iblk m c 1 t) :=
  ((dats m 0 c).before_in_eq_fetched 1 rfl (fun _ => rfl) (clip1_of_index)
    (fun t => by rw [after0_1]; unfold rblk; rw [Window.cut_fill]; unfold Dat.blockOf iblk; rw [A_eq]) t d).trans
    (by unfold Dat.fetched Dat.blockOf iblk; rw [A_eq])

/-! ## The point's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- The left block whole; the right block on the rows that are moved; the result block at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply (sound_kernel (F := F) c Set.univ _ _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have e : (cfg0.win 1).fill (cfg0.grid.coords t) d1 ((cfg0.win 1).cut (cfg0.grid.coords t) (rblk m c t))
        = win0_1.fill (grid0.coords t) d1 (iblk m c 1 t) := by
      unfold rblk
      exact congrArg (win0_1.fill (grid0.coords t) d1) (win0_1.cut_fill _ _ _)
    rw [e]; iexact H1
  · iexists _; iexact H2

theorem body_obligation (c : Dev nD) :
    BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
/-- Every weakly fair execution terminates without fault; nothing is said of the result array beyond its being
    overwritten block by block, and every other array ends as the grid found it. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The three argument arrays end as they began: the first two are staged by no window and untouched by the host
    prefix; the third is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Eq.mp (congrFun (((dats m 0 c).toRForget forgets0).ArrAt_in 1 rfl _) _) ((h c).1 1)).trans
        ((A_eq m c 1).trans (V_main_arg2 m c))⟩) (run_main m ρ)

end Cert.Kernel.Body

end
-- ==== Proof.IdealPoint.lean ====
/-
  One grid point of the blocked product.

  At a grid point the kernel holds three staged blocks: 512 rows of the normalised left operand (256 columns each),
  4096 rows of the right operand (256 columns each), and a 512-by-4096 block of the result.  It reads the two
  operand blocks whole, forms every dot product of a left row with a right row, and overwrites the result block
  whole with them; what the result block held before is read and discarded.  The two operand blocks are left as
  they were found.  Nothing here depends on what the blocks hold: the statement is about any contents.
-/
import proofs.«159441_j67473936220402_2_alg».proof.Proof.Gen.KernelIdeal.Frame
import proofs.«159441_j67473936220402_2_alg».proof.Proof.Gen.KernelIdeal.Skeleton
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three whole-block accesses -/

abbrev r0_0 : Rect S512x256 := Rect.unit (s := S512x256) ![0, 0] S512x256.size inb_S512x256_S512x256_0_0
abbrev r0_1 : Rect S4096x256 := Rect.unit (s := S4096x256) ![0, 0] S4096x256.size inb_S4096x256_S4096x256_0_0
abbrev r0_2 : Rect S512x4096 := Rect.unit (s := S512x4096) ![0, 0] S512x4096.size inb_S512x4096_S512x4096_0_0

/-- The result block after the point: the single whole-block store of the product of the two operand blocks. -/
def out0_2 (x0 : Vec F S512x256 .bf16) (x1 : Vec F S4096x256 .f32) : Vec F S512x4096 .f32 :=
  View.canon [⟨r0_2, k0_pay1 (View.ld x0 r0_0) (View.ld x1 r0_1)⟩]

/-- That one store covers the result block. -/
theorem cover0_2 (p0 : Vec F S512x4096 .f32) (y : S512x4096.Idx) :
    ∃ pc ∈ ([⟨r0_2, p0⟩] : List (View.Piece (Elt F) S512x4096 .f32)), y ∈ pc.1.set :=
  View.cover_of_tiled [⟨r0_2, p0⟩] S512x4096.size (by rfl) y

/-! ## The point's triple -/

set_option maxHeartbeats 1000000 in
/-- On whole staged blocks, the operands at any contents `x0`, `x1` and the result block at anything, the point
    runs without fault and ends with the operands as found and the result block holding their product. -/
theorem sound_kernel (c : Dev nD) (E : Set ℕ) (i : grid0.Coords)
    (arg2 : Memref sig .tc .vmem S512x256 .bf16) (harg2 : arg2.IsWhole)
    (arg3 : Memref sig .tc .vmem S4096x256 .f32) (harg3 : arg3.IsWhole)
    (arg4 : Memref sig .tc .vmem S512x4096 .f32) (harg4 : arg4.IsWhole)
    (x0 : Vec F S512x256 .bf16) (x1 : Vec F S4096x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_bt_kernel i arg2 harg2 arg3 harg3 arg4 harg4) K := by
  simp only [cc0__matmul_bt_kernel_eq_skeleton]; unfold cc0__matmul_bt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

end Cert.KernelIdeal.Body

end
-- ==== Proof.LibRowsDot.lean ====
/-
  A matrix product with the right operand given by rows.

  For a left operand of M rows by K columns and a right operand of N rows by K columns, contracted along the
  column axis of both (no batch axis), the product has entry (p, q) equal to the dot product of row p of the left
  with row q of the right:  Σ_k l[p, k] · r[q, k].  Over the extended reals the matrix unit's product into a zero
  accumulator is exactly this finite sum: no rounding, and no order of accumulation to speak of.
-/
import Idealize.ShloMosaic.Lib.ValueIdx
import Idealize.ShloMosaic.PureOps.Ideal.Laws

noncomputable section

namespace Cert.Lib

open Idealize.ShloMosaic Idealize.ShloMosaic.ValueIdx

variable {M K N : Nat}

/-- The left operand's row coordinate is the result's row. -/
theorem rowsDot_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem rowsDot_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right operand's row coordinate is the result's column. -/
theorem rowsDot_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rowsDot_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction sum of a rows-by-rows product, re-indexed by the column position k < K. -/
theorem rowsDot_contr_sum (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rowsDot_lhs_row _ _
      | ⟨1, _⟩ => exact (rowsDot_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rowsDot_rhs_row _ _
      | ⟨1, _⟩ => exact (rowsDot_rhs_col _ _).trans hk)
  rw [el, er]

/-- The matrix unit's rows-by-rows product into the zero accumulator, read at (p, q): Σ_k l[p, k] · r[q, k]. -/
theorem matmul_rowsDot_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply]
  exact rowsDot_contr_sum l r p q

/-- The host's dot_general with the same dimension numbers, read at (p, q): the same sum. -/
theorem dotGeneral_rowsDot_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q) = ∑ k : Fin K, l (ix2 p k) * r (ix2 q k) := by
  rw [Ideal.dotGeneral_apply]
  exact rowsDot_contr_sum l r p q

end Cert.Lib

end
-- ==== Proof.IdealProduct.lean ====
/-
  The product block, entry by entry, over the extended reals.

  Entry (p, q) of the block a grid point stores is the dot product of row p of the left block with row q of the
  right block: the sum over the 256 columns k of left[p, k] · right[q, k].  A change of float format is the
  identity on extended reals and the accumulator starts at zero, so nothing else enters.  In particular entry
  (p, q) reads row q of the right block and no other row: rows of the right block that lie past the end of the
  right operand (the last block of rows overhangs it) influence only result columns past the end of the result.
-/
import proofs.«159441_j67473936220402_2_alg».proof.Proof.IdealPoint
import proofs.«159441_j67473936220402_2_alg».proof.Proof.LibRowsDot
import Idealize.ShloMosaic.Lib.Pipeline.Value
import Idealize.ShloMosaic.Lib.ValueIdx

set_option maxRecDepth 16384

noncomputable section

namespace Cert.KernelIdeal.Body

open Idealize.ShloMosaic.ValueIdx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The whole-block store of the product is the product. -/
theorem out0_2_eq (x0 : Vec F S512x256 .bf16) (x1 : Vec F S4096x256 .f32) : out0_2 x0 x1 = k0_pay1 x0 x1 := by
  unfold out0_2
  rw [View.canon_unit_zero hz]
  simp only [View.ld_unit_zero (S := S512x256) hz, View.ld_unit_zero (S := S4096x256) hz]

/-- Entry (p, q) of the product block: Σ_k left[p, k] · right[q, k]. -/
theorem pay_apply (x0 : Vec Ideal S512x256 .bf16) (x1 : Vec Ideal S4096x256 .f32) (p : Fin 512) (q : Fin 4096) :
    k0_pay1 (F := Ideal) x0 x1 (ix2 p q) = ∑ k : Fin 256, x0 (ix2 p k) * x1 (ix2 q k) := by
  have e : k0_pay1 (F := Ideal) x0 x1
      = FloatOps.matmul (φ₁ := .bf16) (φ₂ := .bf16) (DotDims.transposedRhs 512 256 4096) none x0 x1 (constant ⟨2, ![512, 4096]⟩ .f32 0x00000000#32) := by
    unfold k0_pay1
    simp only [shapeCast_self]
    rfl
  rw [e]
  exact Cert.Lib.matmul_rowsDot_zero_apply (φ₁ := .bf16) (φ₂ := .bf16) none x0 x1 p q

/-- A result column that lies inside the result reads a right-block row that lies inside the right operand: such
    entries are the same whatever fills the right block's rows past the operand's end. -/
theorem prod_rows_inside (i : grid0.Coords) (X0 : Vec Ideal S512x256 .bf16) (d d' : S4096x256.Idx → EReal)
    (b : (win0_1.xblock i).Idx → EReal) :
    win0_2.cut i (k0_pay1 (F := Ideal) X0 (win0_1.fill i d b)) = win0_2.cut i (k0_pay1 (F := Ideal) X0 (win0_1.fill i d' b)) := by
  funext y
  have hy : win0_2.xinj i y = ix2 (⟨(y 0).val, Nat.lt_of_lt_of_le (y 0).isLt (win0_2.xsize_le i 0)⟩ : Fin 512)
      (⟨(y 1).val, Nat.lt_of_lt_of_le (y 1).isLt (win0_2.xsize_le i 1)⟩ : Fin 4096) :=
    funext fun a => by match a with | ⟨0, _⟩ => rfl | ⟨1, _⟩ => rfl
  show k0_pay1 (F := Ideal) X0 _ (win0_2.xinj i y) = k0_pay1 (F := Ideal) X0 _ (win0_2.xinj i y)
  rw [hy, pay_apply, pay_apply]
  refine Finset.sum_congr rfl fun k _ => ?_
  congr 1
  have hmv : win0_1.moved i (ix2 (⟨(y 1).val, Nat.lt_of_lt_of_le (y 1).isLt (win0_2.xsize_le i 1)⟩ : Fin 4096) k) = true :=
    (win0_1.moved_iff i _).mpr fun a => by
      match a with
      | ⟨0, _⟩ => exact (y 1).isLt
      | ⟨1, _⟩ => exact k.isLt
  unfold Window.fill
  rw [dif_pos hmv, dif_pos hmv]

end Cert.KernelIdeal.Body

end
-- ==== Proof.IdealRun.lean ====
/-
  The blocked product over the whole grid, on the extended reals.

  The grid has 25 × 4 points; point (j, i) works on rows 512·i … 512·i + 511 of the normalised left operand, on
  rows 4096·j … 4096·j + 4095 of the right operand, and writes the 512-by-4096 block (i, j) of the result.  The
  right operand has 100000 rows, so its last block of rows (j = 24) overhangs it: only its first 1696 rows come
  from the operand, and what the staged block holds below them is not determined.  Correspondingly only the first
  1696 columns of a result block with j = 24 are written back.  The data below name, for every point, what each
  staged block holds when the point ends — on the part that is moved to or from the arrays —, and the point's
  triple shows that this is what the point leaves.  The left block is kept from point to point while i varies;
  the right block is fetched when j changes and kept otherwise.
-/
import proofs.«159441_j67473936220402_2_alg».proof.Proof.IdealProduct

set_option maxRecDepth 16384

noncomputable section

namespace Cert.KernelIdeal.Body

open Idealize.ShloMosaic.ValueIdx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

local notation "𝕀" => MT nD τ sig Unit (Elt Ideal) ℕ (UR sig nD τ) ℕ

variable (m : (ℓ : Loc nD τ sig) → Buf (Elt Ideal) ℓ) (ρ : Dev nD → PrngReg)

/-! ## What the staged blocks hold after a point -/

/-- The right block at point `t`: the operand's rows where the block lies inside it, zero below. -/
def rblk (c : Dev nD) (t : Fin cfg0.N) : Vec Ideal S4096x256 .f32 :=
  win0_1.fill (grid0.coords t) (fun _ => (0 : EReal)) (iblk m c 1 t)

/-- The result block at point `t`: the product of the left block and that right block. -/
def oblk (c : Dev nD) (t : Fin cfg0.N) : Vec Ideal S512x4096 .f32 :=
  k0_pay1 (F := Ideal) (iblk m c 0 t) (rblk m c t)

/-- The arrays as the grid finds them; after each point the left block, the right block and the product block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => rblk m c t
    | ⟨2, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = rblk m c t := by dsimp only [dats]
theorem after0_2 (c : Dev nD) (t : Fin cfg0.N) : (dats m 0 c).after 2 t = oblk m c t := by dsimp only [dats]

/-! ## What a point finds -/

/-- The left block is in place at every point, fetched there or kept. -/
theorem before0_0 (c : Dev nD) (t : Fin cfg0.N) (d) : (dats m 0 c).before 0 t d = iblk m c 0 t :=
  before0_0_of m (dats m 0 c) (A_eq m c 0) (after0_0 m c) t d

/-- Two points with the same block of right-operand rows cut it at the same row. -/
theorem clip1_of_index (t t' : Fin cfg0.N) (h : (cfg0.win 1).index t = (cfg0.win 1).index t') :
    (cfg0.win 1).clip (cfg0.grid.coords t) = (cfg0.win 1).clip (cfg0.grid.coords t') := by
  funext a
  show Pipeline.Clip.of (win0_1.index t a) _ _ = Pipeline.Clip.of (win0_1.index t' a) _ _
  rw [show win0_1.index t = win0_1.index t' from h]

/-- The right block at every point, fetched there or kept: the operand's rows where the block lies inside it,
    and below them whatever the buffer held (`d`). -/
theorem before0_1 (c : Dev nD) (t : Fin cfg0.N) (d) :
    (dats m 0 c).before 1 t d = win0_1.fill (grid0.coords t) d (iblk m c 1 t) :=
  ((dats m 0 c).before_in_eq_fetched 1 rfl (fun _ => rfl) (clip1_of_index)
    (fun t => by rw [after0_1]; unfold rblk; rw [Window.cut_fill]; unfold Dat.blockOf iblk; rw [A_eq]) t d).trans
    (by unfold Dat.fetched Dat.blockOf iblk; rw [A_eq])

/-! ## The point's obligation -/

def bodyPre (c : Dev nD) (t : Fin cfg0.N) : sProp 𝕀 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- The left block whole; the right block and the product block on the part that is moved. -/
def bodyPost (c : Dev nD) (t : Fin cfg0.N) : sProp 𝕀 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel (F := Ideal) c Set.univ _ _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have e : (cfg0.win 1).fill (cfg0.grid.coords t) d1 ((cfg0.win 1).cut (cfg0.grid.coords t) (rblk m c t))
        = win0_1.fill (grid0.coords t) d1 (iblk m c 1 t) := by
      unfold rblk
      exact congrArg (win0_1.fill (grid0.coords t) d1) (win0_1.cut_fill _ _ _)
    rw [e]; iexact H1
  · iexists (out0_2 (iblk m c 0 t) (win0_1.fill (grid0.coords t) d1 (iblk m c 1 t)))
    have e : (cfg0.win 2).fill (cfg0.grid.coords t) (out0_2 (iblk m c 0 t) (win0_1.fill (grid0.coords t) d1 (iblk m c 1 t)))
          ((cfg0.win 2).cut (cfg0.grid.coords t) (oblk m c t))
        = out0_2 (iblk m c 0 t) (win0_1.fill (grid0.coords t) d1 (iblk m c 1 t)) := by
      refine win0_2.fill_congr_cut (grid0.coords t) ?_
      rw [out0_2_eq]
      unfold oblk rblk
      exact prod_rows_inside (grid0.coords t) (iblk m c 0 t) d1 (fun _ => (0 : EReal)) (iblk m c 1 t)
    rw [e]; iexact H2

theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution terminates without fault; the result array then holds what the write-backs of
    the product blocks left, and every other array what the grid found. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The three argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.RowsProduct.lean ====
/-
  The function both programs compute: every dot product of a row of one matrix with a row of another.

  For a of 2048 rows and b of 100000 rows, 256 columns each, entry (r, n) of the result is Σ_k a[r, k] · b[n, k]
  over the extended reals.  Sums and products of extended reals are commutative and associative with no side
  condition, and this file asks for nothing more: both programs form exactly this sum, in whatever order.
-/
import Idealize.ShloMosaic.Lib.ValueIdx
import Idealize.ShloMosaic.PureOps.Ideal

noncomputable section

namespace Cert.Spec

open Idealize.ShloMosaic Idealize.ShloMosaic.ValueIdx

/-- Entry (r, n): the dot product of row r of `a` with row n of `b`. -/
def rowsProduct (a : (⟨2, ![2048, 256]⟩ : Shape).Idx → EReal) (b : (⟨2, ![100000, 256]⟩ : Shape).Idx → EReal) :
    (⟨2, ![2048, 100000]⟩ : Shape).Idx → EReal :=
  fun i => ∑ k : Fin 256, a (ix2 (i 0) k) * b (ix2 (i 1) k)

end Cert.Spec

end
-- ==== Proof.IdealValue.lean ====
/-
  The result array after the run, entry by entry.

  Point t of the grid (t = 4·j + i) writes back block (i, j) of the result: rows 512·i … 512·i + 511 and columns
  4096·j … 4096·j + 4095, cut at column 100000 when j = 24.  Entry (p, q) of that block is the dot product of row p
  of the staged left block — row 512·i + p of the normalised left operand — with row q of the staged right block,
  and q lies inside the right operand exactly when column 4096·j + q lies inside the result, so that row is row
  4096·j + q of the right operand.  Hence what each point writes back is its block of one whole-array function,
  the rows-by-rows product of the two arrays the grid finds; the blocks cover the result, so the result array
  ends holding that function.
-/
import proofs.«159441_j67473936220402_2_alg».proof.Proof.IdealRun
import proofs.«159441_j67473936220402_2_alg».proof.Proof.RowsProduct

set_option maxRecDepth 16384

noncomputable section

namespace Cert.KernelIdeal.Body

open Idealize.ShloMosaic.ValueIdx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- Where the three windows sit at point t = 4·j + i: the left block at block-row i, the right block at block-row j,
    the result block at (i, j); the left and right blocks span all 256 columns. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) = t.val % 4
    ∧ win0_2.index t (1 : Fin 2) = t.val / 4 :=
  (by decide +kernel : ∀ t : Fin grid0.N, _)

/-- The part of the result block that is written back: all 512 rows, and 4096 columns except in the last block
    column, where 1696 remain. -/
theorem xsize_facts : ∀ t : Fin cfg0.N, win0_2.xsize (grid0.coords t) (0 : Fin 2) = 512
    ∧ win0_2.xsize (grid0.coords t) (1 : Fin 2) = (if t.val / 4 < 24 then 4096 else 1696) :=
  (by decide +kernel : ∀ t : Fin grid0.N, _)

/-- The whole-array function the result ends at. -/
abbrev G (c : Dev nD) : S2048x100000.Idx → EReal :=
  Cert.Spec.rowsProduct (V m c main_v5) (V m c main_arg2)

/-- What point `t` writes back is its block of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold oblk
  obtain ⟨e0, e1, e2, e3, -, -⟩ := idx_facts t
  funext y
  have hy : win0_2.xinj (grid0.coords t) y
      = ix2 (⟨(y 0).val, Nat.lt_of_lt_of_le (y 0).isLt (win0_2.xsize_le (grid0.coords t) 0)⟩ : Fin 512)
          (⟨(y 1).val, Nat.lt_of_lt_of_le (y 1).isLt (win0_2.xsize_le (grid0.coords t) 1)⟩ : Fin 4096) :=
    funext fun a => by match a with | ⟨0, _⟩ => rfl | ⟨1, _⟩ => rfl
  show k0_pay1 (F := Ideal) (iblk m c 0 t) (rblk m c t) (win0_2.xinj (grid0.coords t) y)
    = Cert.Spec.rowsProduct (V m c main_v5) (V m c main_arg2) (((cfg0.win 2).blk t).view.emb y)
  rw [hy, pay_apply]
  unfold Cert.Spec.rowsProduct
  refine Finset.sum_congr rfl fun k _ => ?_
  -- the left factor: row 512·i + p of the normalised left operand
  have hl : iblk m c 0 t (ix2 (⟨(y 0).val, Nat.lt_of_lt_of_le (y 0).isLt (win0_2.xsize_le (grid0.coords t) 0)⟩ : Fin 512) k)
      = V m c main_v5 (ix2 ((((cfg0.win 2).blk t).view.emb y) 0) k) := by
    show V m c main_v5 (((cfg0.win 0).blk t).view.emb (ix2 (⟨(y 0).val, _⟩ : Fin 512) k)) = _
    congr 1
    funext a; apply Fin.ext
    match a with
    | ⟨0, _⟩ =>
      show win0_0.index t (0 : Fin 2) * 512 + 1 * (y 0).val = win0_2.index t (0 : Fin 2) * 512 + 1 * (y 0).val
      rw [e0]
    | ⟨1, _⟩ =>
      show win0_0.index t (1 : Fin 2) * 256 + 1 * k.val = k.val
      rw [e1]; omega
  -- the right factor: the staged row is inside the right operand, and is its row 4096·j + q
  have hmv : win0_1.moved (grid0.coords t)
      (ix2 (⟨(y 1).val, Nat.lt_of_lt_of_le (y 1).isLt (win0_2.xsize_le (grid0.coords t) 1)⟩ : Fin 4096) k) = true :=
    (win0_1.moved_iff (grid0.coords t) _).mpr fun a => by
      match a with
      | ⟨0, _⟩ => exact (y 1).isLt
      | ⟨1, _⟩ => exact k.isLt
  have hr : rblk m c t (ix2 (⟨(y 1).val, Nat.lt_of_lt_of_le (y 1).isLt (win0_2.xsize_le (grid0.coords t) 1)⟩ : Fin 4096) k)
      = V m c main_arg2 (ix2 ((((cfg0.win 2).blk t).view.emb y) 1) k) := by
    unfold rblk Window.fill
    rw [dif_pos hmv]
    show V m c main_arg2 (((cfg0.win 1).blk t).view.emb _) = _
    congr 1
    funext a; apply Fin.ext
    match a with
    | ⟨0, _⟩ =>
      show win0_1.index t (0 : Fin 2) * 4096 + 1 * (y 1).val = win0_2.index t (1 : Fin 2) * 4096 + 1 * (y 1).val
      rw [e2]
    | ⟨1, _⟩ =>
      show win0_1.index t (1 : Fin 2) * 256 + 1 * k.val = k.val
      rw [e3]; omega
  rw [hl, hr]

/-- An entry of the result is in point `t`'s written-back block iff each coordinate is in the block's range. -/
theorem mem_blk (t : Fin cfg0.N) (i : S2048x100000.Idx) :
    i ∈ ((cfg0.win 2).blk t).view.set ↔ ∀ a : Fin 2, win0_2.index t a * S512x4096.size a ≤ (i a).val
      ∧ (i a).val < win0_2.index t a * S512x4096.size a + win0_2.xsize (grid0.coords t) a := by
  show i ∈ ((View.whole main_v6).slice (win0_2.rect t)).set ↔ _
  rw [View.set_slice_whole, Rect.mem_set_unit]
  exact Iff.rfl

/-- Every entry of the result lies in the block some point writes back: entry (r, n) in that of the point with
    i = r / 512 and j = n / 4096. -/
theorem cover (i : S2048x100000.Idx) :
    ∃ t : Fin cfg0.N, (cfg0.win 2).flush t = true ∧ i ∈ ((cfg0.win 2).blk t).view.set := by
  have h0 : (i 0).val < 2048 := (i 0).isLt
  have h1 : (i 1).val < 100000 := (i 1).isLt
  let t : Fin cfg0.N := ⟨(i 1).val / 4096 * 4 + (i 0).val / 512, by rw [show cfg0.N = 100 from N_0]; omega⟩
  have ht : t.val = (i 1).val / 4096 * 4 + (i 0).val / 512 := rfl
  obtain ⟨-, -, -, -, e4, e5⟩ := idx_facts t
  obtain ⟨s0, s1⟩ := xsize_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + win0_2.xsize (grid0.coords t) (0 : Fin 2)
    rw [e4, s0, ht]; omega
  | ⟨1, _⟩ =>
    show win0_2.index t (1 : Fin 2) * 4096 ≤ (i 1).val ∧ (i 1).val < win0_2.index t (1 : Fin 2) * 4096 + win0_2.xsize (grid0.coords t) (1 : Fin 2)
    rw [e5, s1, ht]
    split <;> omega

/-- The result array after the run is the rows-by-rows product of the normalised left operand, as the host
    operations before the grid leave it, with the right operand. -/
theorem final2 (c : Dev nD) : (dats m 0 c).arrAt 2 cfg0.N = G m c :=
  (dats m 0 c).arrAt_eq_of_cover 2 (G m c) (fun t _ => flushed_eq m c t) (cover)

/-- The run, read: the result array ends at the rows-by-rows product, the three arguments as they began. -/
theorem run : θ_run defs (onTc (τ := τ) (main (F := Ideal))) ⟨m, fun _ => 0, ρ⟩ (fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 2).trans (final2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c)))⟩) (run_main m ρ)

end Cert.KernelIdeal.Body

end
-- ==== Proof.HostPrefix.lean ====
/-
  The normalised left operand is the same array in both programs.

  Before its grid the kernel's host program squares the left operand entry by entry, sums each row, takes the
  square root, bounds it below by a small constant, and divides each row by the result; the last step, a change
  of float format, is the identity on extended reals.  The reference does the same operations with the same
  constant.  So the array the grid finds as its left operand is the reference's normalised operand.
-/
import proofs.«159441_j67473936220402_2_alg».proof.Proof.Gen.KernelIdeal.Frame
import proofs.«159441_j67473936220402_2_alg».proof.Proof.Gen.ReferenceIdeal.Read
import Idealize.ShloMosaic.Lib.StableHlo.Run

set_option maxRecDepth 16384

noncomputable section

namespace Cert.KernelIdeal.HostPrefix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- What the grid finds as its left operand is the reference's normalisation of the first argument. -/
theorem left_operand (c : Dev nD) :
    (V m c main_v5 : S2048x256.Idx → EReal)
      = Cert.ReferenceIdeal.Read.val_main_v4 (F := Ideal) (m ((c : Thread nD τ).loc main_arg0)) := by
  dsimp only [V]
  simp only [hostOps0, hostOps0_1, List.flatten_cons, List.flatten_nil, List.append_nil, List.cons_append, List.nil_append]
  after_results
  rfl

end Cert.KernelIdeal.HostPrefix

end
-- ==== Proof.RefSide.lean ====
/-
  The reference's side: its result is the rows-by-rows product of the normalised left operand with the right
  operand.  The reference normalises the rows (each row divided by the larger of its Euclidean norm and a small
  constant) and then contracts the column axis of both matrices in one step; read entry by entry over the
  extended reals that contraction is the sum over the 256 columns.
-/
import proofs.«159441_j67473936220402_2_alg».proof.Proof.Gen.ReferenceIdeal.Read
import proofs.«159441_j67473936220402_2_alg».proof.Proof.RowsProduct

noncomputable section

namespace Cert.ReferenceIdeal.RefSide

open Cert.ReferenceIdeal Cert.ReferenceIdeal.Gen Cert.ReferenceIdeal.Read
open Idealize.ShloMosaic Idealize.ShloMosaic.ValueIdx

/-- The reference's result, as a function of its two float arguments, is the rows-by-rows product of the
    normalised first argument with the second. -/
theorem result_eq (x0 : (⟨S2048x256, .f32⟩ : BufTy).Contents (Elt Ideal)) (x2 : (⟨S100000x256, .f32⟩ : BufTy).Contents (Elt Ideal)) :
    val_main_v5 (F := Ideal) x0 x2 = Cert.Spec.rowsProduct (val_main_v4 (F := Ideal) x0) x2 := by
  funext i
  rw [val_main_v5_apply]
  unfold Cert.Spec.rowsProduct
  refine Finset.sum_congr rfl fun k _ => ?_
  have el : lidx_main_v5 i k = ix2 (i 0) k := funext fun a => Fin.ext (by match a with | ⟨0, _⟩ => rfl | ⟨1, _⟩ => rfl)
  have er : ridx_main_v5 i k = ix2 (i 1) k := funext fun a => Fin.ext (by match a with | ⟨0, _⟩ => rfl | ⟨1, _⟩ => rfl)
  rw [el, er]
  rfl

end Cert.ReferenceIdeal.RefSide

end
-- ==== Proof.lean ====
/-
  The claim: a blocked matrix product against one whole contraction.

  Both programs normalise the rows of a 2048-by-256 matrix x (each row divided by the larger of its Euclidean norm
  and a small constant, the same constant in both) and multiply the result with the transpose of a 100000-by-256
  matrix f: entry (r, n) of the result is Σ_k xn[r, k] · f[n, k].  The reference contracts in one step.  The kernel
  tiles the result into 512-by-4096 blocks over a 25 × 4 grid and forms each block from 512 rows of xn and 4096
  rows of f; changes of float format are the identity on extended reals and each block's accumulator starts at
  zero, so each entry is the same finite sum of the same products.  No law beyond reading the two contractions
  entry by entry is used, and the finiteness of the inputs is not needed.

  One thing needs care.  100000 is not a multiple of 4096: the last block of rows of f overhangs it, the staged copy
  holds undetermined contents below row 1696, and the kernel multiplies by those rows too.  They reach only result
  columns 100000 and beyond of the last block column, which are never written back; an entry that is written back
  reads a row of f that exists.

  The pieces: the point's triple (BitsPoint, IdealPoint: the same text for the word-level program and its
  idealisation); the data over the grid and the runs (BitsRun: termination, no fault, arguments unchanged, nothing
  said of the result; IdealRun: the same with the staged blocks named); the product entry by entry (IdealProduct,
  over LibRowsDot); the result array after the run (IdealValue); the normalised operand the grid finds
  (HostPrefix); the reference's result (RefSide); the common specification (RowsProduct).
-/
import proofs.«159441_j67473936220402_2_alg».proof.Defs
import proofs.«159441_j67473936220402_2_alg».proof.Proof.Gen.Kernel
import proofs.«159441_j67473936220402_2_alg».proof.Proof.Gen.KernelIdeal
import proofs.«159441_j67473936220402_2_alg».proof.Proof.Gen.ReferenceIdeal
import proofs.«159441_j67473936220402_2_alg».proof.Proof.Gen.Pre_finite_inputs
import proofs.«159441_j67473936220402_2_alg».proof.Proof.BitsRun
import proofs.«159441_j67473936220402_2_alg».proof.Proof.IdealValue
import proofs.«159441_j67473936220402_2_alg».proof.Proof.HostPrefix
import proofs.«159441_j67473936220402_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments unchanged. -/
theorem frame_k : Cert.frame_Kernel := fun m ρ _ => Cert.Kernel.Body.frame (F := Bits) m ρ

/-- So does its idealisation. -/
theorem frame_ki : Cert.frame_KernelIdeal := fun m ρ _ => Cert.KernelIdeal.Body.frame m ρ

/-- So does the reference: its run, with what it says of the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealisation rewrote nothing. -/
theorem preserves : Cert.preserves_Kernel_KernelIdeal := trivial

/-- From memories that agree on the arguments both programs end with the rows-by-rows product of the normalised
    first argument with the third, and with the third argument itself. -/
theorem algebraic : Cert.algebraic_KernelIdeal_ReferenceIdeal := by
  intro m ρ m' ρ' _ hagree
  refine ⟨fun c => Cert.KernelIdeal.Body.G m c,
    fun c => m ((c.tc : Thread Cert.KernelIdeal.nD Cert.KernelIdeal.τ).loc Cert.KernelIdeal.main_arg2), ?_, ?_⟩
  · exact (θ_run Cert.KernelIdeal.defs _ _).mono
      (fun _ h c => ⟨(h c).1, (h c).2.2.2, (h c).2.1, (h c).2.2.1, (h c).2.2.2⟩) (Cert.KernelIdeal.Body.run m ρ)
  · refine (θ_run Cert.ReferenceIdeal.defs _ _).mono
      (fun _ h c => ⟨?_, ((h c).2.1).trans (hagree c).2.2, (h c).2.2.1, (h c).2.2.2.1, (h c).2.2.2.2⟩)
      (Cert.ReferenceIdeal.Value.run (F := Ideal) m' ρ')
    have h5 := (h c).1
    rw [Cert.ReferenceIdeal.Read.val_main_v5_eq, Cert.ReferenceIdeal.RefSide.result_eq, (hagree c).1, (hagree c).2.2] at h5
    refine h5.trans ?_
    show _ = Cert.Spec.rowsProduct (Cert.KernelIdeal.Gen.V m c Cert.KernelIdeal.main_v5) (Cert.KernelIdeal.Gen.V m c Cert.KernelIdeal.main_arg2)
    rw [Cert.KernelIdeal.HostPrefix.left_operand m c, Cert.KernelIdeal.Gen.V_main_arg2 m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
